-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x2048 : Shape := ⟨2, ![2048, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S4x2048x1024 .f32) (main_arg1 : FVec F S4x2048x1024 .f32) (main_arg2 : FVec F S4x2048x1024 .f32) (main_arg3 : FVec F S2048x2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S4x2048x1024 : Shape := ⟨3, ![4, 2048, 1024]⟩
abbrev S2048x2048 : Shape := ⟨2, ![2048, 2048]⟩
abbrev S4x8x2048x2048 : Shape := ⟨4, ![4, 8, 2048, 2048]⟩
abbrev S1x128x1024 : Shape := ⟨3, ![1, 128, 1024]⟩
abbrev S1x2048x1024 : Shape := ⟨3, ![1, 2048, 1024]⟩
abbrev S128x2048 : Shape := ⟨2, ![128, 2048]⟩
abbrev S1x8x128x2048 : Shape := ⟨4, ![1, 8, 128, 2048]⟩
abbrev S128x1024 : Shape := ⟨2, ![128, 1024]⟩
abbrev S2048x1024 : Shape := ⟨2, ![2048, 1024]⟩
abbrev S1024x2048 : Shape := ⟨2, ![1024, 2048]⟩
abbrev S128 : Shape := ⟨1, ![128]⟩
abbrev S128x1 : Shape := ⟨2, ![128, 1]⟩
abbrev S1x128x2048 : Shape := ⟨3, ![1, 128, 2048]⟩
abbrev S8x128x2048 : Shape := ⟨3, ![8, 128, 2048]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S2048x2048, .f32⟩
  | .hbm, ⟨4, _⟩ => ⟨S4x2048x1024, .f32⟩
  | .hbm, ⟨5, _⟩ => ⟨S4x8x2048x2048, .f32⟩
  | .local _ .vmem, ⟨0, _⟩ => ⟨S1x128x1024, .f32⟩
  | .local _ .vmem, ⟨1, _⟩ => ⟨S1x128x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S128x2048, .f32⟩
  | .local _ .vmem, ⟨5, _⟩ => ⟨S128x2048, .f32⟩
  | .local _ .vmem, ⟨6, _⟩ => ⟨S1x128x1024, .f32⟩
  | .local _ .vmem, ⟨7, _⟩ => ⟨S1x128x1024, .f32⟩
  | .local _ .vmem, ⟨8, _⟩ => ⟨S1x8x128x2048, .f32⟩
  | .local _ .vmem, ⟨9, _⟩ => ⟨S1x8x128x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  broadcasts_S128x1_S128x2048 : S128x1.Broadcasts S128x2048
  shapeCasts_S128x1024_S1x128x1024 : S128x1024.ShapeCasts S1x128x1024
  shapeCasts_S128x2048_S1x128x2048 : S128x2048.ShapeCasts S1x128x2048
  shapeCasts_S1x128x2048_S1x128x2048 : S1x128x2048.ShapeCasts S1x128x2048
  broadcasts_S1x128x2048_S8x128x2048 : S1x128x2048.Broadcasts S8x128x2048
  inb_S1x8x128x2048_S1x8x128x2048_0_0_0_0 : ∀ a, (![0, 0, 0, 0] : Fin 4 → Nat) a + S1x8x128x2048.size a ≤ S1x8x128x2048.size a
  h_S1x8x128x2048 : 0 < S1x8x128x2048.numel
  shapeCasts_S1x8x128x2048_S8x128x2048 : S1x8x128x2048.ShapeCasts S8x128x2048
  shapeCasts_S8x128x2048_S1x8x128x2048 : S8x128x2048.ShapeCasts S1x8x128x2048
  dot_S128x1024_S1024x2048_S128x2048_1_0_0_1_n_n_wf : DotDims.WF S128x1024 S1024x2048 S128x2048 [1] [0] [0] [1] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x2048x1024.size a
  hwx0_0 : ∀ i : grid0.Coords, EltTy.bits .f32 = 32 ∨ (Rect.block (s := S4x2048x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x2048x1024.size a
  hwx0_2 : ∀ i : grid0.Coords, EltTy.bits .f32 = 32 ∨ (Rect.block (s := S4x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S4x2048x1024.size a
  hwx0_4 : ∀ i : grid0.Coords, EltTy.bits .f32 = 32 ∨ (Rect.block (s := S4x2048x1024) S1x128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128x2048.size a ≤ S4x8x2048x2048.size a
  hwx0_5 : ∀ i : grid0.Coords, EltTy.bits .f32 = 32 ∨ (Rect.block (s := S4x8x2048x2048) S1x8x128x2048.size (cc0_transform_5 i) (hinb0_5 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x8x128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S2048x2048 : Shape := ⟨2, ![2048, 2048]⟩
abbrev S_ : Shape := ⟨0, ![]⟩
abbrev S4x2048x2048 : Shape := ⟨3, ![4, 2048, 2048]⟩
abbrev S1x2048x2048 : Shape := ⟨3, ![1, 2048, 2048]⟩
abbrev S4x2048 : Shape := ⟨2, ![4, 2048]⟩
abbrev S4x2048x1 : Shape := ⟨3, ![4, 2048, 1]⟩
abbrev S4x1x2048x2048 : Shape := ⟨4, ![4, 1, 2048, 2048]⟩
abbrev S4x8x2048x2048 : Shape := ⟨4, ![4, 8, 2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S1x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x1024, .f32⟩
  | .hbm, ⟨32, _⟩ => ⟨S4x1x2048x2048, .f32⟩
  | .hbm, ⟨33, _⟩ => ⟨S4x8x2048x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Attention.lean ====
/-
  Scaled dot-product attention with an additive mask, one query row at a time, on the extended reals.

  For a query row `q` (a vector of 1024 reals), a key matrix `K` (2048 rows) and a mask row `μ` (2048 entries):
    score k  = (∑ d, q d · K k d) · σ + μ k · ν            (σ the scale 1/32, ν the mask weight −10⁹)
    top      = max(−∞, max over k of score k, folded from −∞)
    e k      = exp (score k − top)
    weight k = e k / ∑ k', e k'
  and the output row is ∑ k, weight k · V k d. Over the batched arrays the weights of batch `b`, query `q` are
  the weights of row `Q[b, q, ·]` against `K[b, ·, ·]` and `M[q, ·]`; the second result repeats them over 8 heads.
  Everything here is a sum, a fold of `max`, or a pointwise operation of extended reals, so no finiteness is used.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The scale `2⁻⁵ = 1/√1024`, as the f32 word both programs could spell. -/
abbrev cScale : EReal := Ideal.ofBits .f32 0x3D000000#32
/-- The mask weight `−10⁹` (the f32 nearest to it), the same word in both programs. -/
abbrev cMask : EReal := Ideal.ofBits .f32 0xCE6E6B28#32
/-- The f32 `−∞` word, from which both maxima are folded. -/
abbrev cBot : EReal := Ideal.ofBits .f32 0xFF800000#32

/-- The masked, scaled score of one query row against key `k`. -/
def rowScore (qrow : Fin 1024 → EReal) (kmat : Fin 2048 → Fin 1024 → EReal) (mrow : Fin 2048 → EReal) (k : Fin 2048) : EReal :=
  (∑ d : Fin 1024, qrow d * kmat k d) * cScale + mrow k * cMask

/-- The row's maximum: the fold of `max` from `−∞` over the 2048 scores, once more against `−∞`. -/
def rowMax (s : Fin 2048 → EReal) : EReal := max cBot ((Finset.univ : Finset (Fin 2048)).fold max cBot s)

/-- The shifted exponential of one score. -/
def rowExp (s : Fin 2048 → EReal) (k : Fin 2048) : EReal := Ideal.exp (s k - rowMax s)

/-- The softmax weight of key `k` in the row. -/
def rowSoftmax (s : Fin 2048 → EReal) (k : Fin 2048) : EReal := Ideal.div (rowExp s k) (∑ k' : Fin 2048, rowExp s k')

/-- The attention weight of batch `b`, query `q`, key `k` over the whole arrays. -/
def weight (Q K : (⟨3, ![4, 2048, 1024]⟩ : Shape).Idx → EReal) (M : (⟨2, ![2048, 2048]⟩ : Shape).Idx → EReal)
    (b : Fin 4) (q k : Fin 2048) : EReal :=
  rowSoftmax (rowScore (fun d => Q (ix3 b q d)) (fun k' d => K (ix3 b k' d)) (fun k' => M (ix2 q k'))) k

/-- The first result: the weighted sum of the value rows. -/
def attnOut (Q K V : (⟨3, ![4, 2048, 1024]⟩ : Shape).Idx → EReal) (M : (⟨2, ![2048, 2048]⟩ : Shape).Idx → EReal) :
    (⟨3, ![4, 2048, 1024]⟩ : Shape).Idx → EReal :=
  fun i => ∑ k : Fin 2048, weight Q K M (i 0) (i 1) k * V (ix3 (i 0) k (i 2))

/-- The second result: the weights, the same for each of the 8 heads. -/
def attnWeights (Q K : (⟨3, ![4, 2048, 1024]⟩ : Shape).Idx → EReal) (M : (⟨2, ![2048, 2048]⟩ : Shape).Idx → EReal) :
    (⟨4, ![4, 8, 2048, 2048]⟩ : Shape).Idx → EReal :=
  fun i => weight Q K M (i 0) (i 2) (i 3)

/-! ## The scale: `1 / √1024` is `2⁻⁵` exactly -/

theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem sqrt_1024 : Real.sqrt 1024 = 32 := by
  rw [show (1024 : ℝ) = 32 ^ 2 by norm_num]; exact Real.sqrt_sq (by norm_num)

/-- The reference's scale `1.0 / sqrt(1024.0)`, computed on the extended reals, is the kernel's literal `0.03125`:
    1024 is the square of 32, and `1/32` is a binary fraction. -/
theorem scale_eq :
    Ideal.div (Ideal.ofBits .f32 0x3F800000#32) (Ideal.sqrt (Ideal.ofBits .f32 0x44800000#32)) = cScale := by
  rw [ofBits_1024, Ideal.sqrt_coe, if_neg (by norm_num), sqrt_1024, Ideal.div_coe (by norm_num : (32 : ℝ) ≠ 0),
    ofBits_one, one_mul]
  exact ofBits_inv32.symm

end Cert.Attention

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelBlock.lean ====
/-
  What the kernel's body computes from the blocks it loads, entry by entry.

  At a grid point the body holds a block of 128 query rows (`[1,128,1024]`), the batch's whole key and value matrices
  (`[1,2048,1024]` each) and the 128 matching mask rows (`[128,2048]`). Its score block is the product of the query block
  with the transposed key matrix, times `2⁻⁵`, plus the mask times `−10⁹`; row `r` of that block is the specification's
  `rowScore` of query row `r`. The softmax of a score block is taken row by row: the lane maximum (a fold of `max`
  from `−∞`, kept as a column and broadcast back), the shifted exponential, the lane sum (kept as a column and
  broadcast back), the quotient. The output block is the product of the weight block with the value matrix.
  The changes of format to bf16 before each product are the identity on the extended reals.
-/
import proofs.«125549_j29532195127778_1_alg».proof.Proof.Gen.KernelIdeal.Skeleton
import proofs.«125549_j29532195127778_1_alg».proof.Proof.Attention
import proofs.«125549_j29532195127778_1_alg».proof.Proof.LibColumnBroadcast
import Idealize.ShloMosaic.Lib.Pipeline.Value
import Idealize.ShloMosaic.Lib.ValueIdx
import Idealize.ShloMosaic.PureOps.Ideal.Laws

noncomputable section

namespace Cert.Attention.Kernel

open Cert.KernelIdeal Cert.KernelIdeal.Gen Idealize.ShloMosaic Idealize.ShloMosaic.ValueIdx Cert.Attention

/-- The dimension numbers of the score product, `[128,1024] × [1024,2048]`. -/
abbrev Dqk : DotDims S128x1024 S1024x2048 S128x2048 := dot_S128x1024_S1024x2048_S128x2048_1_0_0_1_n_n
/-- The dimension numbers of the output product, `[128,2048] × [2048,1024]`. -/
abbrev Dwv : DotDims S128x2048 S2048x1024 S128x1024 := dot_S128x2048_S2048x1024_S128x1024_1_0_0_1_n_n

/-! ## A column of 128 kept as `[128,1]` and broadcast along the lanes -/

/-- A vector of 128 reshaped to a column and broadcast to `[128,2048]` reads, at `(r, k)`, the vector at `r`. -/
theorem column_apply (v : FVec Ideal S128 .f32) (r : Fin 128) (k : Fin 2048) :
    broadcastTo S128x2048 (shapeCast S128x1 v shapeCasts_S128_S128x1) broadcasts_S128x1_S128x2048 (ix2 r k) = v (ix1 r) :=
  (Cert.LibColumnBroadcast.broadcastTo_a1_ab_apply _ broadcasts_S128x1_S128x2048 r k).trans
    (shapeCast_apply v shapeCasts_S128_S128x1 (ix2 r (0 : Fin 1)) (ix1 r) (by
      rw [Shape.rowMajor_val_one, Shape.rowMajor_val_two]; show r.val = r.val * 1 + 0; omega))

/-- Row `r` of the block with lane `k` put back is the entry `(r, k)`. -/
theorem lane_lift (r : Fin 128) (k : Fin 2048) : reduces_S128x2048_S128.lift (ix1 r) k = ix2 r k :=
  funext fun a => Fin.ext (by match a with | ⟨0, _⟩ => rfl | ⟨1, _⟩ => rfl)

/-! ## The softmax of a score block, row by row -/

/-- The lane maxima of a block, each once more against `−∞`. -/
def maxBlk (s : FVec Ideal S128x2048 .f32) : FVec Ideal S128 .f32 :=
  maximumf (broadcast S128 (Scalar.ofBits .f32 0xFF800000#32))
    (multiReduction .maximumf [1] S128 s 0xFF800000#32 reduces_S128x2048_S128 (.inl rfl) rfl)

/-- The exponentials of a block shifted by its lane maxima. -/
def expBlk (s : FVec Ideal S128x2048 .f32) : FVec Ideal S128x2048 .f32 :=
  exp (subf s (broadcastTo S128x2048 (shapeCast S128x1 (maxBlk s) shapeCasts_S128_S128x1) broadcasts_S128x1_S128x2048))

/-- The softmax of a block along its lanes. -/
def softBlk (s : FVec Ideal S128x2048 .f32) : FVec Ideal S128x2048 .f32 :=
  divf (expBlk s) (broadcastTo S128x2048 (shapeCast S128x1
    (multiReduction .add [1] S128 (expBlk s) 0x00000000#32 reduces_S128x2048_S128 (.inl rfl) rfl)
    shapeCasts_S128_S128x1) broadcasts_S128x1_S128x2048)

theorem maxBlk_apply (s : FVec Ideal S128x2048 .f32) (r : Fin 128) :
    maxBlk s (ix1 r) = rowMax (fun k => s (ix2 r k)) := by
  unfold maxBlk rowMax
  show max cBot (multiReduction .maximumf [1] S128 s 0xFF800000#32 reduces_S128x2048_S128 (.inl rfl) rfl (ix1 r)) = _
  refine congrArg (max cBot) ?_
  refine (Ideal.multiReduction_maximumf_single s 0xFF800000#32 reduces_S128x2048_S128 (.inl rfl) rfl (ix1 r)).trans ?_
  exact congrArg (fun f => Finset.fold max cBot f Finset.univ) (funext fun k => congrArg s (lane_lift r k))

theorem expBlk_apply (s : FVec Ideal S128x2048 .f32) (r : Fin 128) (k : Fin 2048) :
    expBlk s (ix2 r k) = rowExp (fun k' => s (ix2 r k')) k := by
  unfold expBlk rowExp
  show Ideal.exp (s (ix2 r k) - broadcastTo S128x2048 (shapeCast S128x1 (maxBlk s) shapeCasts_S128_S128x1)
    broadcasts_S128x1_S128x2048 (ix2 r k)) = _
  rw [column_apply, maxBlk_apply]

theorem sumBlk_apply (s : FVec Ideal S128x2048 .f32) (r : Fin 128) :
    multiReduction .add [1] S128 (expBlk s) 0x00000000#32 reduces_S128x2048_S128 (.inl rfl) rfl (ix1 r)
      = ∑ k : Fin 2048, rowExp (fun k' => s (ix2 r k')) k :=
  (Ideal.multiReduction_add_single (expBlk s) 0x00000000#32 reduces_S128x2048_S128 (.inl rfl) rfl (ix1 r)).trans
    (Finset.sum_congr rfl fun k _ => (congrArg (expBlk s) (lane_lift r k)).trans (expBlk_apply s r k))

/-- Row `r` of a block's softmax is the specification's softmax of row `r`. -/
theorem softBlk_apply (s : FVec Ideal S128x2048 .f32) (r : Fin 128) (k : Fin 2048) :
    softBlk s (ix2 r k) = rowSoftmax (fun k' => s (ix2 r k')) k := by
  unfold softBlk rowSoftmax
  show Ideal.div (expBlk s (ix2 r k)) (broadcastTo S128x2048 (shapeCast S128x1
    (multiReduction .add [1] S128 (expBlk s) 0x00000000#32 reduces_S128x2048_S128 (.inl rfl) rfl)
    shapeCasts_S128_S128x1) broadcasts_S128x1_S128x2048 (ix2 r k)) = _
  rw [column_apply, expBlk_apply, sumBlk_apply]

/-! ## The score block -/

/-- The scores of the 128 loaded query rows against all 2048 keys. -/
def scoreBlk (P0 : FVec Ideal S1x128x1024 .f32) (P1 : FVec Ideal S1x2048x1024 .f32) (P3 : FVec Ideal S128x2048 .f32) :
    FVec Ideal S128x2048 .f32 :=
  addf (mulf (matmul Dqk none
      (truncf .bf16 (shapeCast S128x1024 P0 shapeCasts_S1x128x1024_S128x1024) bitsLt_bf16_f32)
      (transpose S1024x2048 [1, 0] (truncf .bf16 (shapeCast S2048x1024 P1 shapeCasts_S1x2048x1024_S2048x1024) bitsLt_bf16_f32)
        transposes_S2048x1024_p1_0_S1024x2048)
      (constant S128x2048 .f32 0x00000000#32)) (broadcast S128x2048 (Scalar.ofBits .f32 0x3D000000#32)))
    (mulf P3 (broadcast S128x2048 (Scalar.ofBits .f32 0xCE6E6B28#32)))

theorem qk_lhs0 (i : S128x2048.Idx) (q : Dqk.contr.Idx) : (Dqk.lhsIdx i q 0).val = (i 0).val := by
  unfold DotDims.lhsIdx
  rw [dif_neg (show ¬(0 : Fin S128x1024.rank) ∈ Dqk.lhsBatch by decide),
    dif_pos (show (0 : Fin S128x1024.rank) ∈ Dqk.lhsNonContracting by decide)]
  rfl
theorem qk_rhs1 (i : S128x2048.Idx) (q : Dqk.contr.Idx) : (Dqk.rhsIdx i q 1).val = (i 1).val := by
  unfold DotDims.rhsIdx
  rw [dif_neg (show ¬(1 : Fin S1024x2048.rank) ∈ Dqk.rhsBatch by decide),
    dif_pos (show (1 : Fin S1024x2048.rank) ∈ Dqk.rhsNonContracting by decide)]
  rfl

/-- The left factor of the score product at `(r, k)` and contraction position `d` sits at `(r, d)`. -/
theorem qk_lhs (r : Fin 128) (k : Fin 2048) (d : Fin 1024) :
    Dqk.lhsIdx (ix2 r k) ((contrEquiv1 Dqk 1024 rfl rfl).symm d) = ix2 r d :=
  funext fun a => Fin.ext (by
    match a with
    | ⟨0, _⟩ => exact qk_lhs0 _ _
    | ⟨1, _⟩ => exact (Dqk.lhsIdx_val_of_single rfl _ _).trans (contrEquiv1_symm_val Dqk 1024 rfl rfl d))
/-- The right factor sits at `(d, k)`. -/
theorem qk_rhs (r : Fin 128) (k : Fin 2048) (d : Fin 1024) :
    Dqk.rhsIdx (ix2 r k) ((contrEquiv1 Dqk 1024 rfl rfl).symm d) = ix2 d k :=
  funext fun a => Fin.ext (by
    match a with
    | ⟨0, _⟩ => exact (Dqk.rhsIdx_val_of_single rfl _ _).trans (contrEquiv1_symm_val Dqk 1024 rfl rfl d)
    | ⟨1, _⟩ => exact qk_rhs1 _ _)

/-- Row `r` of the score block is the specification's score of the loaded query row `r`. -/
theorem scoreBlk_apply (P0 : FVec Ideal S1x128x1024 .f32) (P1 : FVec Ideal S1x2048x1024 .f32) (P3 : FVec Ideal S128x2048 .f32)
    (r : Fin 128) (k : Fin 2048) :
    scoreBlk P0 P1 P3 (ix2 r k)
      = rowScore (fun d => P0 (ix3 (0 : Fin 1) r d)) (fun k' d => P1 (ix3 (0 : Fin 1) k' d)) (fun k' => P3 (ix2 r k')) k := by
  unfold scoreBlk rowScore
  show FloatOps.matmul (F := Ideal) Dqk none _ _ (constant S128x2048 .f32 0x00000000#32) (ix2 r k) * cScale + P3 (ix2 r k) * cMask = _
  refine congrArg (· + P3 (ix2 r k) * cMask) (congrArg (· * cScale) ?_)
  rw [Ideal.matmul_constant_zero_apply, ← Equiv.sum_comp (contrEquiv1 Dqk 1024 rfl rfl).symm]
  refine Finset.sum_congr rfl fun d _ => ?_
  rw [qk_lhs, qk_rhs]
  refine congrArg₂ (· * ·) ?_ ?_
  · exact shapeCast_apply P0 shapeCasts_S1x128x1024_S128x1024 (ix2 r d) (ix3 (0 : Fin 1) r d) (by
      rw [Shape.rowMajor_val_three, Shape.rowMajor_val_two]
      show (0 * 128 + r.val) * 1024 + d.val = r.val * 1024 + d.val; omega)
  · exact (transpose_apply [1, 0] _ transposes_S2048x1024_p1_0_S1024x2048 (ix2 d k) (ix2 k d)
      (fun b => match b with | ⟨0, _⟩ => rfl | ⟨1, _⟩ => rfl)).trans
      (shapeCast_apply P1 shapeCasts_S1x2048x1024_S2048x1024 (ix2 k d) (ix3 (0 : Fin 1) k d) (by
        rw [Shape.rowMajor_val_three, Shape.rowMajor_val_two]
        show (0 * 2048 + k.val) * 1024 + d.val = k.val * 1024 + d.val; omega))

/-- The body's weight block is the softmax of its score block. -/
theorem pay2_eq (P0 : FVec Ideal S1x128x1024 .f32) (P1 : FVec Ideal S1x2048x1024 .f32) (P3 : FVec Ideal S128x2048 .f32) :
    k0_pay2 (F := Ideal) P0 P1 P3 = softBlk (scoreBlk P0 P1 P3) := rfl

/-- The body's weight block, entry by entry: the specification's softmax weights of the loaded rows. -/
theorem pay2_apply (P0 : FVec Ideal S1x128x1024 .f32) (P1 : FVec Ideal S1x2048x1024 .f32) (P3 : FVec Ideal S128x2048 .f32)
    (r : Fin 128) (k : Fin 2048) :
    k0_pay2 (F := Ideal) P0 P1 P3 (ix2 r k)
      = rowSoftmax (rowScore (fun d => P0 (ix3 (0 : Fin 1) r d)) (fun k' d => P1 (ix3 (0 : Fin 1) k' d)) (fun k' => P3 (ix2 r k'))) k := by
  rw [pay2_eq, softBlk_apply]
  exact congrArg (fun s => rowSoftmax s k) (funext fun k' => scoreBlk_apply P0 P1 P3 r k')

/-! ## The output block -/

/-- The product of a weight block with the loaded value matrix, as the body stores it. -/
def outBlk (w : FVec Ideal S128x2048 .f32) (P2 : FVec Ideal S1x2048x1024 .f32) : FVec Ideal S1x128x1024 .f32 :=
  shapeCast S1x128x1024 (matmul Dwv none (truncf .bf16 w bitsLt_bf16_f32)
    (truncf .bf16 (shapeCast S2048x1024 P2 shapeCasts_S1x2048x1024_S2048x1024) bitsLt_bf16_f32)
    (constant S128x1024 .f32 0x00000000#32)) shapeCasts_S128x1024_S1x128x1024

theorem wv_lhs0 (i : S128x1024.Idx) (q : Dwv.contr.Idx) : (Dwv.lhsIdx i q 0).val = (i 0).val := by
  unfold DotDims.lhsIdx
  rw [dif_neg (show ¬(0 : Fin S128x2048.rank) ∈ Dwv.lhsBatch by decide),
    dif_pos (show (0 : Fin S128x2048.rank) ∈ Dwv.lhsNonContracting by decide)]
  rfl
theorem wv_rhs1 (i : S128x1024.Idx) (q : Dwv.contr.Idx) : (Dwv.rhsIdx i q 1).val = (i 1).val := by
  unfold DotDims.rhsIdx
  rw [dif_neg (show ¬(1 : Fin S2048x1024.rank) ∈ Dwv.rhsBatch by decide),
    dif_pos (show (1 : Fin S2048x1024.rank) ∈ Dwv.rhsNonContracting by decide)]
  rfl
theorem wv_lhs (r : Fin 128) (d : Fin 1024) (k : Fin 2048) :
    Dwv.lhsIdx (ix2 r d) ((contrEquiv1 Dwv 2048 rfl rfl).symm k) = ix2 r k :=
  funext fun a => Fin.ext (by
    match a with
    | ⟨0, _⟩ => exact wv_lhs0 _ _
    | ⟨1, _⟩ => exact (Dwv.lhsIdx_val_of_single rfl _ _).trans (contrEquiv1_symm_val Dwv 2048 rfl rfl k))
theorem wv_rhs (r : Fin 128) (d : Fin 1024) (k : Fin 2048) :
    Dwv.rhsIdx (ix2 r d) ((contrEquiv1 Dwv 2048 rfl rfl).symm k) = ix2 k d :=
  funext fun a => Fin.ext (by
    match a with
    | ⟨0, _⟩ => exact (Dwv.rhsIdx_val_of_single rfl _ _).trans (contrEquiv1_symm_val Dwv 2048 rfl rfl k)
    | ⟨1, _⟩ => exact wv_rhs1 _ _)

/-- The output block at `(0, r, d)` is the sum over the keys of weight times value. -/
theorem outBlk_apply (w : FVec Ideal S128x2048 .f32) (P2 : FVec Ideal S1x2048x1024 .f32) (r : Fin 128) (d : Fin 1024) :
    outBlk w P2 (ix3 (0 : Fin 1) r d) = ∑ k : Fin 2048, w (ix2 r k) * P2 (ix3 (0 : Fin 1) k d) := by
  unfold outBlk
  refine (shapeCast_apply _ shapeCasts_S128x1024_S1x128x1024 (ix3 (0 : Fin 1) r d) (ix2 r d) (by
    rw [Shape.rowMajor_val_three, Shape.rowMajor_val_two]
    show r.val * 1024 + d.val = (0 * 128 + r.val) * 1024 + d.val; omega)).trans ?_
  show FloatOps.matmul (F := Ideal) Dwv none _ _ (constant S128x1024 .f32 0x00000000#32) (ix2 r d) = _
  rw [Ideal.matmul_constant_zero_apply, ← Equiv.sum_comp (contrEquiv1 Dwv 2048 rfl rfl).symm]
  refine Finset.sum_congr rfl fun k _ => ?_
  rw [wv_lhs, wv_rhs]
  refine congrArg (w (ix2 r k) * ·) ?_
  exact shapeCast_apply P2 shapeCasts_S1x2048x1024_S2048x1024 (ix2 k d) (ix3 (0 : Fin 1) k d) (by
    rw [Shape.rowMajor_val_three, Shape.rowMajor_val_two]
    show (0 * 2048 + k.val) * 1024 + d.val = k.val * 1024 + d.val; omega)

/-- The body's stored output block is that product of its weight block. -/
theorem pay3_eq (P0 : FVec Ideal S1x128x1024 .f32) (P1 : FVec Ideal S1x2048x1024 .f32) (P3 : FVec Ideal S128x2048 .f32)
    (P2 : FVec Ideal S1x2048x1024 .f32) : k0_pay3 (F := Ideal) P0 P1 P3 P2 = outBlk (k0_pay2 (F := Ideal) P0 P1 P3) P2 := rfl

/-! ## The body's blocks against the whole arrays

When the loaded blocks are the rows of the whole arrays that belong to batch `b` and query `q` — the query block's row `r`
is `Q[b, q, ·]`, the key and value blocks are `K[b, ·, ·]` and `V[b, ·, ·]`, the mask block's row `r` is `M[q, ·]` — row `r` of
the body's weight block holds the attention weights of `(b, q)`, and row `r` of its output block the attention output. -/

theorem weightRow (Q K : (⟨3, ![4, 2048, 1024]⟩ : Shape).Idx → EReal) (M : (⟨2, ![2048, 2048]⟩ : Shape).Idx → EReal)
    (P0 : FVec Ideal S1x128x1024 .f32) (P1 : FVec Ideal S1x2048x1024 .f32) (P3 : FVec Ideal S128x2048 .f32)
    (b : Fin 4) (q : Fin 2048) (r : Fin 128)
    (h0 : ∀ d : Fin 1024, P0 (ix3 (0 : Fin 1) r d) = Q (ix3 b q d))
    (h1 : ∀ (k : Fin 2048) (d : Fin 1024), P1 (ix3 (0 : Fin 1) k d) = K (ix3 b k d))
    (h3 : ∀ k : Fin 2048, P3 (ix2 r k) = M (ix2 q k)) (k : Fin 2048) :
    k0_pay2 (F := Ideal) P0 P1 P3 (ix2 r k) = weight Q K M b q k := by
  rw [pay2_apply]
  unfold weight
  rw [funext h0, funext fun k' => funext (h1 k'), funext h3]

theorem outRow (Q K V : (⟨3, ![4, 2048, 1024]⟩ : Shape).Idx → EReal) (M : (⟨2, ![2048, 2048]⟩ : Shape).Idx → EReal)
    (P0 : FVec Ideal S1x128x1024 .f32) (P1 P2 : FVec Ideal S1x2048x1024 .f32) (P3 : FVec Ideal S128x2048 .f32)
    (b : Fin 4) (q : Fin 2048) (r : Fin 128)
    (h0 : ∀ d : Fin 1024, P0 (ix3 (0 : Fin 1) r d) = Q (ix3 b q d))
    (h1 : ∀ (k : Fin 2048) (d : Fin 1024), P1 (ix3 (0 : Fin 1) k d) = K (ix3 b k d))
    (h2 : ∀ (k : Fin 2048) (d : Fin 1024), P2 (ix3 (0 : Fin 1) k d) = V (ix3 b k d))
    (h3 : ∀ k : Fin 2048, P3 (ix2 r k) = M (ix2 q k)) (d : Fin 1024) :
    k0_pay3 (F := Ideal) P0 P1 P3 P2 (ix3 (0 : Fin 1) r d) = attnOut Q K V M (ix3 b q d) := by
  rw [pay3_eq, outBlk_apply]
  unfold attnOut
  refine Finset.sum_congr rfl fun k _ => ?_
  rw [weightRow Q K M P0 P1 P3 b q r h0 h1 h3 k, h2]

end Cert.Attention.Kernel

end
-- ==== Proof.KernelValue.lean ====
/-
  From what each grid point writes back to the two result arrays.

  The grid has 4 × 16 points `(b, j)`. Point `(b, j)` loads query rows `128 j … 128 j + 127` of batch `b`, the batch's
  whole key and value matrices, and mask rows `128 j … 128 j + 127`; it writes back rows `128 j … 128 j + 127` of the
  first result's batch `b`, and the same rows of all 8 heads of the second result's batch `b`. So each written block is the
  matching block of the attention specification taken over the whole argument arrays, and the 64 blocks tile both result
  arrays: after the run each result array is the specification.
-/
import proofs.«125549_j29532195127778_1_alg».proof.Proof.Gen.KernelIdeal.Value
import proofs.«125549_j29532195127778_1_alg».proof.Proof.KernelBlock
import Idealize.ShloMosaic.Lib.Pipeline.Value

noncomputable section

open Idealize.ShloMosaic Idealize.ShloMosaic.TcCoe Idealize.SL.Sem
open Idealize.ShloMosaic.Pipeline (Dat)

namespace Cert.Attention.KernelRun

open Cert.KernelIdeal Cert.KernelIdeal.Gen Cert.KernelIdeal.Value Idealize.ShloMosaic.ValueIdx Cert.Attention Cert.Attention.Kernel

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The six index maps at a grid point, relative to the first result's: the query block and both results move with the
    point `(b, j)`, the key and value blocks with `b` alone, the mask block with `j` alone. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 2) = win0_4.index t (1 : Fin 3) ∧ win0_3.index t (1 : Fin 2) = 0
    ∧ win0_4.index t (2 : Fin 3) = 0 ∧ win0_4.index t (0 : Fin 3) < 4 ∧ win0_4.index t (1 : Fin 3) < 16
    ∧ win0_5.index t (0 : Fin 4) = win0_4.index t (0 : Fin 3) ∧ win0_5.index t (1 : Fin 4) = 0
    ∧ win0_5.index t (2 : Fin 4) = win0_4.index t (1 : Fin 3) ∧ win0_5.index t (3 : Fin 4) = 0 :=
  (by decide +kernel : ∀ t : Fin grid0.N, _)

/-- Every pair `(b, j)` is some grid point's. -/
theorem idx_onto : ∀ (b : Fin 4) (j : Fin 16), ∃ t : Fin cfg0.N,
    win0_4.index t (0 : Fin 3) = b.val ∧ win0_4.index t (1 : Fin 3) = j.val :=
  (by decide +kernel : ∀ (b : Fin 4) (j : Fin 16), ∃ t : Fin grid0.N,
    win0_4.index t (0 : Fin 3) = b.val ∧ win0_4.index t (1 : Fin 3) = j.val)

/-! ## The input blocks as entries of the argument arrays -/

theorem iblk0_apply (c : Dev nD) (t : Fin cfg0.N) (x : S1x128x1024.Idx) (k : S4x2048x1024.Idx)
    (h0 : win0_0.index t (0 : Fin 3) * 1 + 1 * (x 0).val = (k 0).val)
    (h1 : win0_0.index t (1 : Fin 3) * 128 + 1 * (x 1).val = (k 1).val)
    (h2 : win0_0.index t (2 : Fin 3) * 1024 + 1 * (x 2).val = (k 2).val) :
    (iblk m c 0 t : Vec Ideal S1x128x1024 .f32) x = (m ((c : Thread nD τ).loc main_arg0) : S4x2048x1024.Idx → Elt Ideal .f32) k := by
  unfold iblk
  rw [View.read_apply]
  show V m c main_arg0 _ = m (c.tc.loc main_arg0) _
  unfold V
  congr 1
  funext a
  apply Fin.ext
  match a with
  | ⟨0, _⟩ => exact h0
  | ⟨1, _⟩ => exact h1
  | ⟨2, _⟩ => exact h2

theorem iblk1_apply (c : Dev nD) (t : Fin cfg0.N) (x : S1x2048x1024.Idx) (k : S4x2048x1024.Idx)
    (h0 : win0_1.index t (0 : Fin 3) * 1 + 1 * (x 0).val = (k 0).val)
    (h1 : win0_1.index t (1 : Fin 3) * 2048 + 1 * (x 1).val = (k 1).val)
    (h2 : win0_1.index t (2 : Fin 3) * 1024 + 1 * (x 2).val = (k 2).val) :
    (iblk m c 1 t : Vec Ideal S1x2048x1024 .f32) x = (m ((c : Thread nD τ).loc main_arg1) : S4x2048x1024.Idx → Elt Ideal .f32) k := by
  unfold iblk
  rw [View.read_apply]
  show V m c main_arg1 _ = m (c.tc.loc main_arg1) _
  unfold V
  congr 1
  funext a
  apply Fin.ext
  match a with
  | ⟨0, _⟩ => exact h0
  | ⟨1, _⟩ => exact h1
  | ⟨2, _⟩ => exact h2

theorem iblk2_apply (c : Dev nD) (t : Fin cfg0.N) (x : S1x2048x1024.Idx) (k : S4x2048x1024.Idx)
    (h0 : win0_2.index t (0 : Fin 3) * 1 + 1 * (x 0).val = (k 0).val)
    (h1 : win0_2.index t (1 : Fin 3) * 2048 + 1 * (x 1).val = (k 1).val)
    (h2 : win0_2.index t (2 : Fin 3) * 1024 + 1 * (x 2).val = (k 2).val) :
    (iblk m c 2 t : Vec Ideal S1x2048x1024 .f32) x = (m ((c : Thread nD τ).loc main_arg2) : S4x2048x1024.Idx → Elt Ideal .f32) k := by
  unfold iblk
  rw [View.read_apply]
  show V m c main_arg2 _ = m (c.tc.loc main_arg2) _
  unfold V
  congr 1
  funext a
  apply Fin.ext
  match a with
  | ⟨0, _⟩ => exact h0
  | ⟨1, _⟩ => exact h1
  | ⟨2, _⟩ => exact h2

theorem iblk3_apply (c : Dev nD) (t : Fin cfg0.N) (x : S128x2048.Idx) (k : S2048x2048.Idx)
    (h0 : win0_3.index t (0 : Fin 2) * 128 + 1 * (x 0).val = (k 0).val)
    (h1 : win0_3.index t (1 : Fin 2) * 2048 + 1 * (x 1).val = (k 1).val) :
    (iblk m c 3 t : Vec Ideal S128x2048 .f32) x = (m ((c : Thread nD τ).loc main_arg3) : S2048x2048.Idx → Elt Ideal .f32) k := by
  unfold iblk
  rw [View.read_apply]
  show V m c main_arg3 _ = m (c.tc.loc main_arg3) _
  unfold V
  congr 1
  funext a
  apply Fin.ext
  match a with
  | ⟨0, _⟩ => exact h0
  | ⟨1, _⟩ => exact h1

/-! ## What a point writes back -/

/-- Point `t` writes back, to the first result, its block of the attention output over the whole arrays. -/
theorem flushed4_eq (c : Dev nD) (t : Fin cfg0.N) :
    (dats m 0 c).flushed 4 t = ((cfg0.win 4).blk t).view.read (Elt Ideal)
      (attnOut (m ((c : Thread nD τ).loc main_arg0)) (m ((c : Thread nD τ).loc main_arg1))
        (m ((c : Thread nD τ).loc main_arg2)) (m ((c : Thread nD τ).loc main_arg3))) := by
  rw [flushed4]
  unfold out0_4
  rw [View.canon_unit_zero hz3]
  simp only [View.ld_unit_zero (S := S1x128x1024) hz3, View.ld_unit_zero (S := S1x2048x1024) hz3,
    View.ld_unit_zero (S := S128x2048) hz2]
  obtain ⟨e00, e01, e02, e10, e11, e12, e20, e21, e22, e30, e31, e42, hb, hj, e50, e51, e52, e53⟩ := idx_facts t
  funext y
  obtain ⟨z, r, d, rfl⟩ : ∃ (z : Fin 1) (r : Fin 128) (d : Fin 1024), y = ix3 z r d := ⟨y 0, y 1, y 2, eq_ix3 y⟩
  obtain rfl : z = 0 := Subsingleton.elim _ _
  have hr : r.val < 128 := r.isLt
  have hE : ((cfg0.win 4).blk t).view.emb (ix3 (0 : Fin 1) r d)
      = ix3 (⟨win0_4.index t (0 : Fin 3), hb⟩ : Fin 4) (⟨win0_4.index t (1 : Fin 3) * 128 + r.val, by omega⟩ : Fin 2048) d :=
    funext fun a => Fin.ext (by
      match a with
      | ⟨0, _⟩ => show win0_4.index t (0 : Fin 3) * 1 + 1 * 0 = win0_4.index t (0 : Fin 3); omega
      | ⟨1, _⟩ => show win0_4.index t (1 : Fin 3) * 128 + 1 * r.val = win0_4.index t (1 : Fin 3) * 128 + r.val; omega
      | ⟨2, _⟩ => show win0_4.index t (2 : Fin 3) * 1024 + 1 * d.val = d.val; omega)
  show k0_pay3 (F := Ideal) (iblk m c 0 t) (iblk m c 1 t) (iblk m c 3 t) (iblk m c 2 t) (ix3 (0 : Fin 1) r d)
    = attnOut (m ((c : Thread nD τ).loc main_arg0)) (m ((c : Thread nD τ).loc main_arg1))
        (m ((c : Thread nD τ).loc main_arg2)) (m ((c : Thread nD τ).loc main_arg3))
        (((cfg0.win 4).blk t).view.emb (ix3 (0 : Fin 1) r d))
  rw [hE]
  refine outRow (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) ⟨win0_4.index t (0 : Fin 3), hb⟩
    ⟨win0_4.index t (1 : Fin 3) * 128 + r.val, by omega⟩ r ?_ ?_ ?_ ?_ d
  · intro d'
    refine iblk0_apply m c t (ix3 (0 : Fin 1) r d') _ ?_ ?_ ?_
    · show win0_0.index t (0 : Fin 3) * 1 + 1 * 0 = win0_4.index t (0 : Fin 3); omega
    · show win0_0.index t (1 : Fin 3) * 128 + 1 * r.val = win0_4.index t (1 : Fin 3) * 128 + r.val; omega
    · show win0_0.index t (2 : Fin 3) * 1024 + 1 * d'.val = d'.val; omega
  · intro k d'
    refine iblk1_apply m c t (ix3 (0 : Fin 1) k d') _ ?_ ?_ ?_
    · show win0_1.index t (0 : Fin 3) * 1 + 1 * 0 = win0_4.index t (0 : Fin 3); omega
    · show win0_1.index t (1 : Fin 3) * 2048 + 1 * k.val = k.val; omega
    · show win0_1.index t (2 : Fin 3) * 1024 + 1 * d'.val = d'.val; omega
  · intro k d'
    refine iblk2_apply m c t (ix3 (0 : Fin 1) k d') _ ?_ ?_ ?_
    · show win0_2.index t (0 : Fin 3) * 1 + 1 * 0 = win0_4.index t (0 : Fin 3); omega
    · show win0_2.index t (1 : Fin 3) * 2048 + 1 * k.val = k.val; omega
    · show win0_2.index t (2 : Fin 3) * 1024 + 1 * d'.val = d'.val; omega
  · intro k
    refine iblk3_apply m c t (ix2 r k) _ ?_ ?_
    · show win0_3.index t (0 : Fin 2) * 128 + 1 * r.val = win0_4.index t (1 : Fin 3) * 128 + r.val; omega
    · show win0_3.index t (1 : Fin 2) * 2048 + 1 * k.val = k.val; omega

/-- Point `t` writes back, to the second result, its block of the attention weights, the same for every head. -/
theorem flushed5_eq (c : Dev nD) (t : Fin cfg0.N) :
    (dats m 0 c).flushed 5 t = ((cfg0.win 5).blk t).view.read (Elt Ideal)
      (attnWeights (m ((c : Thread nD τ).loc main_arg0)) (m ((c : Thread nD τ).loc main_arg1))
        (m ((c : Thread nD τ).loc main_arg3))) := by
  rw [flushed5]
  unfold out0_5
  simp only [View.ld_unit_zero (S := S1x128x1024) hz3, View.ld_unit_zero (S := S1x2048x1024) hz3,
    View.ld_unit_zero (S := S128x2048) hz2]
  obtain ⟨e00, e01, e02, e10, e11, e12, e20, e21, e22, e30, e31, e42, hb, hj, e50, e51, e52, e53⟩ := idx_facts t
  funext y
  obtain ⟨z, h, r, k, rfl⟩ : ∃ (z : Fin 1) (h : Fin 8) (r : Fin 128) (k : Fin 2048), y = ix4 z h r k :=
    ⟨y 0, y 1, y 2, y 3, eq_ix4 y⟩
  obtain rfl : z = 0 := Subsingleton.elim _ _
  have hr : r.val < 128 := r.isLt
  have hE : ((cfg0.win 5).blk t).view.emb (ix4 (0 : Fin 1) h r k)
      = ix4 (⟨win0_4.index t (0 : Fin 3), hb⟩ : Fin 4) h (⟨win0_4.index t (1 : Fin 3) * 128 + r.val, by omega⟩ : Fin 2048) k :=
    funext fun a => Fin.ext (by
      match a with
      | ⟨0, _⟩ => show win0_5.index t (0 : Fin 4) * 1 + 1 * 0 = win0_4.index t (0 : Fin 3); omega
      | ⟨1, _⟩ => show win0_5.index t (1 : Fin 4) * 8 + 1 * h.val = h.val; omega
      | ⟨2, _⟩ => show win0_5.index t (2 : Fin 4) * 128 + 1 * r.val = win0_4.index t (1 : Fin 3) * 128 + r.val; omega
      | ⟨3, _⟩ => show win0_5.index t (3 : Fin 4) * 2048 + 1 * k.val = k.val; omega)
  show View.canon ([⟨r0_3, k0_pay1 (k0_pay4 (F := Ideal) (iblk m c 0 t) (iblk m c 1 t) (iblk m c 3 t))⟩] : List (View.Piece (Elt Ideal) S1x8x128x2048 .f32)) (ix4 (0 : Fin 1) h r k)
    = attnWeights (m ((c : Thread nD τ).loc main_arg0)) (m ((c : Thread nD τ).loc main_arg1))
        (m ((c : Thread nD τ).loc main_arg3)) (((cfg0.win 5).blk t).view.emb (ix4 (0 : Fin 1) h r k))
  rw [hE]
  refine (canon5_eq (F := Ideal) (iblk m c 0 t) (iblk m c 1 t) (iblk m c 3 t) (ix4 (0 : Fin 1) h r k)).trans ?_
  have hix : ix5_0 (ix4 (0 : Fin 1) h r k) = ix2 r k :=
    funext fun a => by match a with | ⟨0, _⟩ => rfl | ⟨1, _⟩ => rfl
  refine (congrArg (k0_pay2 (F := Ideal) (iblk m c 0 t) (iblk m c 1 t) (iblk m c 3 t)) hix).trans ?_
  refine weightRow (m ((c : Thread nD τ).loc main_arg0)) (m ((c : Thread nD τ).loc main_arg1))
    (m ((c : Thread nD τ).loc main_arg3)) (iblk m c 0 t) (iblk m c 1 t) (iblk m c 3 t) ⟨win0_4.index t (0 : Fin 3), hb⟩
    ⟨win0_4.index t (1 : Fin 3) * 128 + r.val, by omega⟩ r ?_ ?_ ?_ k
  · intro d'
    refine iblk0_apply m c t (ix3 (0 : Fin 1) r d') _ ?_ ?_ ?_
    · show win0_0.index t (0 : Fin 3) * 1 + 1 * 0 = win0_4.index t (0 : Fin 3); omega
    · show win0_0.index t (1 : Fin 3) * 128 + 1 * r.val = win0_4.index t (1 : Fin 3) * 128 + r.val; omega
    · show win0_0.index t (2 : Fin 3) * 1024 + 1 * d'.val = d'.val; omega
  · intro k' d'
    refine iblk1_apply m c t (ix3 (0 : Fin 1) k' d') _ ?_ ?_ ?_
    · show win0_1.index t (0 : Fin 3) * 1 + 1 * 0 = win0_4.index t (0 : Fin 3); omega
    · show win0_1.index t (1 : Fin 3) * 2048 + 1 * k'.val = k'.val; omega
    · show win0_1.index t (2 : Fin 3) * 1024 + 1 * d'.val = d'.val; omega
  · intro k'
    refine iblk3_apply m c t (ix2 r k') _ ?_ ?_
    · show win0_3.index t (0 : Fin 2) * 128 + 1 * r.val = win0_4.index t (1 : Fin 3) * 128 + r.val; omega
    · show win0_3.index t (1 : Fin 2) * 2048 + 1 * k'.val = k'.val; omega

/-! ## The blocks tile the result arrays -/

theorem mem_blk4 (t : Fin cfg0.N) (i : S4x2048x1024.Idx) :
    i ∈ ((cfg0.win 4).blk t).view.set ↔ ∀ a : Fin 3, win0_4.index t a * S1x128x1024.size a ≤ (i a).val
      ∧ (i a).val < win0_4.index t a * S1x128x1024.size a + S1x128x1024.size a := by
  show i ∈ ((View.whole main_v0_0).slice (win0_4.rect t)).set ↔ _
  rw [View.set_slice_whole, Rect.mem_set_unit]
  exact Iff.rfl

theorem mem_blk5 (t : Fin cfg0.N) (i : S4x8x2048x2048.Idx) :
    i ∈ ((cfg0.win 5).blk t).view.set ↔ ∀ a : Fin 4, win0_5.index t a * S1x8x128x2048.size a ≤ (i a).val
      ∧ (i a).val < win0_5.index t a * S1x8x128x2048.size a + S1x8x128x2048.size a := by
  show i ∈ ((View.whole main_v0_1).slice (win0_5.rect t)).set ↔ _
  rw [View.set_slice_whole, Rect.mem_set_unit]
  exact Iff.rfl

/-- Every entry of the first result lies in the block of the point `(b, q / 128)`. -/
theorem cover4 (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, q0, q1⟩ := idx_onto ⟨(i 0).val, hi0⟩ ⟨(i 1).val / 128, by omega⟩
  obtain ⟨e00, e01, e02, e10, e11, e12, e20, e21, e22, e30, e31, e42, hb, hj, e50, e51, e52, e53⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1
              simp only at q0; omega
  | ⟨1, _⟩ => show win0_4.index t (1 : Fin 3) * 128 ≤ (i 1).val ∧ (i 1).val < win0_4.index t (1 : Fin 3) * 128 + 128
              simp only at q1; omega
  | ⟨2, _⟩ => show win0_4.index t (2 : Fin 3) * 1024 ≤ (i 2).val ∧ (i 2).val < win0_4.index t (2 : Fin 3) * 1024 + 1024
              omega

/-- Every entry of the second result lies in the block of the point `(b, q / 128)`, which holds all 8 heads. -/
theorem cover5 (i : S4x8x2048x2048.Idx) :
    ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 2048 := (i 2).isLt
  have hi3 : (i 3).val < 2048 := (i 3).isLt
  obtain ⟨t, q0, q1⟩ := idx_onto ⟨(i 0).val, hi0⟩ ⟨(i 2).val / 128, by omega⟩
  obtain ⟨e00, e01, e02, e10, e11, e12, e20, e21, e22, e30, e31, e42, hb, hj, e50, e51, e52, e53⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1
              simp only at q0; omega
  | ⟨1, _⟩ => show win0_5.index t (1 : Fin 4) * 8 ≤ (i 1).val ∧ (i 1).val < win0_5.index t (1 : Fin 4) * 8 + 8
              omega
  | ⟨2, _⟩ => show win0_5.index t (2 : Fin 4) * 128 ≤ (i 2).val ∧ (i 2).val < win0_5.index t (2 : Fin 4) * 128 + 128
              simp only at q1; omega
  | ⟨3, _⟩ => show win0_5.index t (3 : Fin 4) * 2048 ≤ (i 3).val ∧ (i 3).val < win0_5.index t (3 : Fin 4) * 2048 + 2048
              omega

/-! ## The result arrays after the run -/

theorem final4 (c : Dev nD) : (dats m 0 c).arrAt 4 cfg0.N
    = attnOut (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed4_eq m c t) cover4

theorem final5 (c : Dev nD) : (dats m 0 c).arrAt 5 cfg0.N
    = attnWeights (m ((c : Thread nD τ).loc main_arg0)) (m ((c : Thread nD τ).loc main_arg1))
        (m ((c : Thread nD τ).loc main_arg3)) :=
  (dats m 0 c).arrAt_eq_of_cover 5 _ (fun t _ => flushed5_eq m c t) cover5

/-- The kernel's run: both result arrays end at the attention specification of the argument arrays, which end unchanged. -/
theorem run : θ_run defs (onTc (τ := τ) (main (F := Ideal))) ⟨m, fun _ => 0, ρ⟩ fun r => ∀ c : Dev nD,
      r.2.mem ((c : Thread nD τ).loc main_v0_0)
        = attnOut (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = attnWeights (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.Attention.KernelRun

end
-- ==== Proof.ReferenceValue.lean ====
/-
  The reference program computes the attention specification.

  Reading the reference one stage at a time: its scores are the batched product of `Q` and `K` over the feature axis, times
  `1 / sqrt 1024` (which is `2⁻⁵`), plus the mask times `−10⁹`; its softmax is the shifted exponential over the
  row's maximum (a fold of `max` from `−∞`), divided by the row's sum; its first result is the batched product of the
  weights with `V` over the key axis, its second the weights repeated over the head axis.
-/
import proofs.«125549_j29532195127778_1_alg».proof.Proof.Gen.ReferenceIdeal.Read
import proofs.«125549_j29532195127778_1_alg».proof.Proof.Attention

noncomputable section

namespace Cert.Attention.Reference

open Cert.ReferenceIdeal Cert.ReferenceIdeal.Gen Cert.ReferenceIdeal.Read Idealize.ShloMosaic Idealize.ShloMosaic.ValueIdx
open Cert.Attention

variable (x0 x1 x2 : (⟨S4x2048x1024, .f32⟩ : BufTy).Contents (Elt Ideal)) (x3 : (⟨S2048x2048, .f32⟩ : BufTy).Contents (Elt Ideal))

/-- The scores of batch `b`, query `q`, as a function of the key. -/
abbrev rowOf (b : Fin 4) (q : Fin 2048) : Fin 2048 → EReal :=
  rowScore (fun d => x0 (ix3 b q d)) (fun k' d => x1 (ix3 b k' d)) (fun k' => x3 (ix2 q k'))

/-- The scale the reference broadcasts is `2⁻⁵`. -/
theorem scale_apply (i : S4x2048x2048.Idx) : val_main_v3 (F := Ideal) i = cScale := by
  rw [val_main_v3_apply, val_main_v1_apply, val_main_cst_0_apply, val_main_v0_apply, val_main_cst_apply]
  exact scale_eq

/-- The reference's masked, scaled scores. -/
theorem scores_apply (b : Fin 4) (q k : Fin 2048) :
    val_main_v9 (F := Ideal) x0 x1 x3 (ix3 b q k) = rowOf x0 x1 x3 b q k := by
  rw [val_main_v9_apply, val_main_v4_apply, val_main_v2_apply, scale_apply, val_main_v8_apply, val_main_v7_apply,
    val_main_v6_apply, val_main_v5_apply, val_main_cst_1_apply]
  have el : ∀ d : Fin 1024, lidx_main_v2 (ix3 b q k) d = ix3 b q d := fun d =>
    funext fun a => by match a with | ⟨0, _⟩ => rfl | ⟨1, _⟩ => rfl | ⟨2, _⟩ => rfl
  have er : ∀ d : Fin 1024, ridx_main_v2 (ix3 b q k) d = ix3 b k d := fun d =>
    funext fun a => by match a with | ⟨0, _⟩ => rfl | ⟨1, _⟩ => rfl | ⟨2, _⟩ => rfl
  have em : idx_main_v7 (idx_main_v8 (ix3 b q k)) = ix2 q k :=
    funext fun a => by match a with | ⟨0, _⟩ => rfl | ⟨1, _⟩ => rfl
  simp only [el, er, em]
  rfl

/-- The third axis is the one the reference reduces. -/
theorem red : S4x2048x2048.Reduces [2] S4x2048 := by decide

theorem lift_eq (b : Fin 4) (q k : Fin 2048) : red.lift (ix2 b q) k = ix3 b q k :=
  funext fun a => Fin.ext (by match a with | ⟨0, _⟩ => rfl | ⟨1, _⟩ => rfl | ⟨2, _⟩ => rfl)

/-- The reference's row maximum. -/
theorem max_apply (b : Fin 4) (q : Fin 2048) :
    val_main_v12 (F := Ideal) x0 x1 x3 (ix2 b q) = rowMax (rowOf x0 x1 x3 b q) := by
  rw [val_main_v12_apply, val_main_v11_apply, val_main_cst_3_apply]
  unfold val_main_v10
  rw [Host.reduce_eq_fold_single FloatOps.maximumf _ _ reducesTo_S4x2048x2048_S4x2048_d2 red h_S_ (ix2 b q)]
  have e : (val_main_v9 (F := Ideal) x0 x1 x3 ∘ red.lift (ix2 b q)) = rowOf x0 x1 x3 b q := funext fun k =>
    (congrArg (val_main_v9 (F := Ideal) x0 x1 x3) (lift_eq b q k)).trans (scores_apply x0 x1 x3 b q k)
  rw [e]
  rfl

/-- The reference's shifted exponentials. -/
theorem exp_apply (b : Fin 4) (q k : Fin 2048) :
    val_main_v16 (F := Ideal) x0 x1 x3 (ix3 b q k) = rowExp (rowOf x0 x1 x3 b q) k := by
  rw [val_main_v16_apply, val_main_v15_apply, val_main_v14_apply, val_main_v13_apply, scores_apply]
  have e : idx_main_v13 (idx_main_v14 (ix3 b q k)) = ix2 b q :=
    funext fun a => by match a with | ⟨0, _⟩ => rfl | ⟨1, _⟩ => rfl
  rw [e, max_apply]
  rfl

/-- The reference's row sums. -/
theorem sum_apply (b : Fin 4) (q : Fin 2048) :
    val_main_v17 (F := Ideal) x0 x1 x3 (ix2 b q) = ∑ k : Fin 2048, rowExp (rowOf x0 x1 x3 b q) k := by
  rw [val_main_v17_apply, val_main_cst_4_apply]
  have e : ∀ k : Fin 2048, idx_main_v17 (ix2 b q) k = ix3 b q k := fun k =>
    funext fun a => by match a with | ⟨0, _⟩ => rfl | ⟨1, _⟩ => rfl | ⟨2, _⟩ => rfl
  simp only [e, exp_apply]
  show Ideal.ofBits .f32 0x00000000#32 + _ = _
  rw [Ideal.ofBits_zero_f32, zero_add]

/-- The reference's softmax weights are the specification's. -/
theorem weight_apply (b : Fin 4) (q k : Fin 2048) :
    val_main_v20 (F := Ideal) x0 x1 x3 (ix3 b q k) = weight x0 x1 x3 b q k := by
  rw [val_main_v20_apply, val_main_v19_apply, val_main_v18_apply, exp_apply]
  have e : idx_main_v18 (idx_main_v19 (ix3 b q k)) = ix2 b q :=
    funext fun a => by match a with | ⟨0, _⟩ => rfl | ⟨1, _⟩ => rfl
  rw [e, sum_apply]
  rfl

/-- The reference's first result is the weighted sum of the value rows. -/
theorem out_eq : val_main_v21 (F := Ideal) x0 x1 x2 x3 = attnOut x0 x1 x2 x3 := by
  funext i
  obtain ⟨b, q, d, rfl⟩ : ∃ (b : Fin 4) (q : Fin 2048) (d : Fin 1024), i = ix3 b q d := ⟨i 0, i 1, i 2, eq_ix3 i⟩
  rw [val_main_v21_apply]
  have el : ∀ k : Fin 2048, lidx_main_v21 (ix3 b q d) k = ix3 b q k := fun k =>
    funext fun a => by match a with | ⟨0, _⟩ => rfl | ⟨1, _⟩ => rfl | ⟨2, _⟩ => rfl
  have er : ∀ k : Fin 2048, ridx_main_v21 (ix3 b q d) k = ix3 b k d := fun k =>
    funext fun a => by match a with | ⟨0, _⟩ => rfl | ⟨1, _⟩ => rfl | ⟨2, _⟩ => rfl
  simp only [el, er, weight_apply]
  rfl

/-- The reference's second result is the weights, repeated over the heads. -/
theorem weights_eq : val_main_v23 (F := Ideal) x0 x1 x3 = attnWeights x0 x1 x3 := by
  funext i
  obtain ⟨b, h, q, k, rfl⟩ : ∃ (b : Fin 4) (h : Fin 8) (q k : Fin 2048), i = ix4 b h q k := ⟨i 0, i 1, i 2, i 3, eq_ix4 i⟩
  rw [val_main_v23_apply, val_main_v22_apply]
  have e : idx_main_v22 (idx_main_v23 (ix4 b h q k)) = ix3 b q k :=
    funext fun a => by match a with | ⟨0, _⟩ => rfl | ⟨1, _⟩ => rfl | ⟨2, _⟩ => rfl
  rw [e, weight_apply]
  rfl

end Cert.Attention.Reference

end
-- ==== Proof.lean ====
/-
  Masked scaled dot-product attention: a tiled kernel against the plain formula, on the extended reals.

  Both programs compute, for batch `b`, query `q`, key `k`,
      score  = (∑ d, Q[b,q,d] · K[b,k,d]) · 2⁻⁵ + M[q,k] · (−10⁹),
      weight = exp (score − max_k score) / ∑_k exp (score − max_k score),
  the output `∑ k, weight · V[b,k,d]`, and the weights repeated over 8 heads (Proof/Attention.lean states this once).
  The kernel does it 128 query rows at a time over a 4 × 16 grid, holding a batch's whole key and value matrices, and
  writes each block of both results exactly once; the reference does it on whole arrays. They differ in three ways, none
  of which changes an extended real: the kernel rounds its matrix operands to bf16 (the identity here), it spells the
  scale as the literal `0.03125` where the reference computes `1 / sqrt 1024` (`√1024 = 32` exactly, Proof/Attention.lean
  `scale_eq`), and its sums and maxima run over lanes of a block where the reference's run over an axis of the whole array
  (the same finite sums and folds of `max`). No step uses that the inputs are finite.

  Proof/KernelBlock.lean reads the kernel body's stored blocks entry by entry; Proof/KernelValue.lean reads the input
  blocks as rows of the argument arrays and tiles the results with the written blocks; Proof/ReferenceValue.lean reads
  the reference stage by stage. The frames are the generated ones; the idealization rewrote nothing.
-/
import proofs.«125549_j29532195127778_1_alg».proof.Defs
import proofs.«125549_j29532195127778_1_alg».proof.Proof.Gen.Kernel
import proofs.«125549_j29532195127778_1_alg».proof.Proof.Gen.Kernel.Frame
import proofs.«125549_j29532195127778_1_alg».proof.Proof.Gen.KernelIdeal
import proofs.«125549_j29532195127778_1_alg».proof.Proof.Gen.KernelIdeal.Frame
import proofs.«125549_j29532195127778_1_alg».proof.Proof.Gen.ReferenceIdeal
import proofs.«125549_j29532195127778_1_alg».proof.Proof.Gen.Pre_finite_inputs
import proofs.«125549_j29532195127778_1_alg».proof.Proof.Gen.ReferenceIdeal.Run
import proofs.«125549_j29532195127778_1_alg».proof.Proof.Gen.ReferenceIdeal.Read
import proofs.«125549_j29532195127778_1_alg».proof.Proof.KernelValue
import proofs.«125549_j29532195127778_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the attention output and the attention weights of the (agreeing) argument arrays. -/
theorem algebraic : Cert.algebraic_KernelIdeal_ReferenceIdeal := by
  intro m ρ m' ρ' _ hagree
  refine ⟨_, _, Cert.Attention.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, Cert.Attention.Reference.out_eq, (hagree c).1, (hagree c).2.1,
      (hagree c).2.2.1, (hagree c).2.2.2]
  · rw [Cert.ReferenceIdeal.Read.val_main_v23_eq, Cert.Attention.Reference.weights_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
